-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S640000 : Shape := ⟨1, ![640000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : IVec S640000 32) (main_arg6 : IVec S640000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S5000x128 : Shape := ⟨2, ![5000, 128]⟩
abbrev S1x128 : Shape := ⟨2, ![1, 128]⟩

abbrev nBuf : Space → Nat
  | .hbm => 44
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S640000, .i32⟩
  | .hbm, ⟨6, _⟩ => ⟨S640000, .i32⟩
  | .hbm, ⟨7, _⟩ => ⟨S_, .i32⟩
  | .hbm, ⟨8, _⟩ => ⟨S640000, .i32⟩
  | .hbm, ⟨9, _⟩ => ⟨S640000, .i1⟩
  | .hbm, ⟨10, _⟩ => ⟨S_, .i32⟩
  | .hbm, ⟨11, _⟩ => ⟨S640000, .i32⟩
  | .hbm, ⟨12, _⟩ => ⟨S640000, .i32⟩
  | .hbm, ⟨13, _⟩ => ⟨S640000, .i32⟩
  | .hbm, ⟨14, _⟩ => ⟨S640000x1, .i32⟩
  | .hbm, ⟨15, _⟩ => ⟨S640000x128, .f32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S100000x128, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S100000x128, .f32⟩
  | .hbm, ⟨43, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S640000, .i32⟩
  | .hbm, ⟨6, _⟩ => ⟨S640000, .i32⟩
  | .hbm, ⟨7, _⟩ => ⟨S_, .i32⟩
  | .hbm, ⟨8, _⟩ => ⟨S640000, .i32⟩
  | .hbm, ⟨9, _⟩ => ⟨S640000, .i1⟩
  | .hbm, ⟨10, _⟩ => ⟨S_, .i32⟩
  | .hbm, ⟨11, _⟩ => ⟨S640000, .i32⟩
  | .hbm, ⟨12, _⟩ => ⟨S640000, .i32⟩
  | .hbm, ⟨13, _⟩ => ⟨S640000, .i32⟩
  | .hbm, ⟨14, _⟩ => ⟨S640000x1, .i32⟩
  | .hbm, ⟨15, _⟩ => ⟨S640000x128, .f32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S100000x128, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_call0_cst : Ref sig .tc := ⟨.hbm, 51, rfl⟩
abbrev main_call0_v0 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Mlp.lean ====
/-
  The function both programs compute, stated once over the extended reals and over no program's text.

  Given the aggregated node features `X` (100000 rows of 128 features), a hidden weight matrix `Wh` with bias `bh`
  and an output weight matrix `Wo` with bias `bo`, the result at row `r`, column `c` is

      max ( Σ_k ( Σ_l X[r,l] · Wh[l,k] + bh[k] ) · Wo[k,c] + bo[c] , 0 ).

  Row `r` of the result depends on row `r` of `X` only: that is why the rows may be computed in blocks of any size,
  and why a block of the kernel's output is a restriction of this one function. The zero of the rectifier is kept as
  the float word both programs spell it with, so that it is never evaluated.
-/
import Idealize.ShloMosaic.PureOps.Ideal.Laws
import Idealize.ShloMosaic.Lib.ValueIdx

noncomputable section

namespace Cert.Mlp

open Idealize.ShloMosaic Idealize.ShloMosaic.ValueIdx

/-- Entry `(r, k)` of the hidden layer: row `r` of `X` against column `k` of `Wh`, plus the bias at `k`. -/
def hidden (X : (⟨2, ![100000, 128]⟩ : Shape).Idx → EReal) (Wh : (⟨2, ![128, 128]⟩ : Shape).Idx → EReal)
    (bh : (⟨1, ![128]⟩ : Shape).Idx → EReal) (r : Fin 100000) (k : Fin 128) : EReal :=
  (∑ l : Fin 128, X (ix2 r l) * Wh (ix2 l k)) + bh (ix1 k)

/-- Entry `(r, c)` of the output layer before the rectifier: row `r` of the hidden layer against column `c` of
    `Wo`, plus the bias at `c`. -/
def out (X : (⟨2, ![100000, 128]⟩ : Shape).Idx → EReal) (Wh : (⟨2, ![128, 128]⟩ : Shape).Idx → EReal)
    (bh : (⟨1, ![128]⟩ : Shape).Idx → EReal) (Wo : (⟨2, ![128, 128]⟩ : Shape).Idx → EReal)
    (bo : (⟨1, ![128]⟩ : Shape).Idx → EReal) (r : Fin 100000) (c : Fin 128) : EReal :=
  (∑ k : Fin 128, hidden X Wh bh r k * Wo (ix2 k c)) + bo (ix1 c)

/-- The rectified two-layer perceptron, as one function of the five arrays, index by index. -/
def mlp (X : (⟨2, ![100000, 128]⟩ : Shape).Idx → EReal) (Wh : (⟨2, ![128, 128]⟩ : Shape).Idx → EReal)
    (bh : (⟨1, ![128]⟩ : Shape).Idx → EReal) (Wo : (⟨2, ![128, 128]⟩ : Shape).Idx → EReal)
    (bo : (⟨1, ![128]⟩ : Shape).Idx → EReal) : (⟨2, ![100000, 128]⟩ : Shape).Idx → EReal :=
  fun i => max (out X Wh bh Wo bo (i 0) (i 1)) (Ideal.ofBits .f32 0x00000000#32)

end Cert.Mlp

end
-- ==== Proof.RefMlp.lean ====
/-
  The reference's result, read index by index, is the perceptron `Cert.Mlp.mlp` of the aggregated features.

  The reference computes the aggregated features `X` by two scatter-adds (left unopened here: it is the term
  `val_main_v27`), then two matrix products on the host, each followed by a bias row broadcast over all rows, then the
  maximum with zero. At the extended reals a host matrix product read at `(r, c)` is the sum over the contracted axis of
  the products of the operands' entries, and a bias broadcast read at `(r, c)` is the bias at `c`; so entry `(r, c)` is
  literally the defining expression of `mlp`, once the index functions the reads produce are identified with the
  coordinates `(r, l)`, `(l, k)`, `(k, c)`, `k` and `c`.
-/
import proofs.«101324_j39771397161473_1_alg».proof.Proof.Gen.ReferenceIdeal.Read
import proofs.«101324_j39771397161473_1_alg».proof.Proof.Mlp

noncomputable section

namespace Cert.ReferenceIdeal.RefValue

open Cert.ReferenceIdeal Cert.ReferenceIdeal.Read Idealize.ShloMosaic Idealize.ShloMosaic.ValueIdx

/-! ## The index functions of the reads, as coordinates -/

/-- The first product's left operand, read for hidden entry `(r, k)` at contraction index `l`, is `X[r, l]`. -/
theorem lhs_first (i : S100000x128.Idx) (k l : Fin 128) : lidx_main_v28 (lidx_main_v32 i k) l = ix2 (i 0) l :=
  funext fun a => Fin.ext (by match a with | ⟨0, _⟩ => rfl | ⟨1, _⟩ => rfl)

/-- The first product's right operand there is `Wh[l, k]`. -/
theorem rhs_first (i : S100000x128.Idx) (k l : Fin 128) : ridx_main_v28 (lidx_main_v32 i k) l = ix2 l k :=
  funext fun a => Fin.ext (by match a with | ⟨0, _⟩ => rfl | ⟨1, _⟩ => rfl)

/-- The hidden bias row broadcast over the rows, read at hidden entry `(r, k)`, is `bh[k]`. -/
theorem bias_first (i : S100000x128.Idx) (k : Fin 128) : idx_main_v29 (idx_main_v30 (lidx_main_v32 i k)) = ix1 k :=
  funext fun a => Fin.ext (by match a with | ⟨0, _⟩ => rfl)

/-- The second product's right operand, read for output entry `(r, c)` at contraction index `k`, is `Wo[k, c]`. -/
theorem rhs_second (i : S100000x128.Idx) (k : Fin 128) : ridx_main_v32 i k = ix2 k (i 1) :=
  funext fun a => Fin.ext (by match a with | ⟨0, _⟩ => rfl | ⟨1, _⟩ => rfl)

/-- The output bias row broadcast over the rows, read at `(r, c)`, is `bo[c]`. -/
theorem bias_second (i : S100000x128.Idx) : idx_main_v33 (idx_main_v34 i) = ix1 (i 1) :=
  funext fun a => Fin.ext (by match a with | ⟨0, _⟩ => rfl)

/-! ## The two layers -/

/-- The reference's hidden layer (first product plus bias), read at the index the second product asks for, is
    `Mlp.hidden` of the aggregated features at `(r, k)`. -/
theorem hidden_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x5 x6 : (⟨S640000, .i32⟩ : BufTy).Contents (Elt Ideal))
    (i : S100000x128.Idx) (k : Fin 128) :
    val_main_v31 (F := Ideal) x0 x1 x2 x5 x6 (lidx_main_v32 i k)
      = Cert.Mlp.hidden (val_main_v27 (F := Ideal) x0 x5 x6) x1 x2 (i 0) k := by
  rw [val_main_v31_apply, val_main_v28_apply, val_main_v30_apply, val_main_v29_apply]
  simp only [lhs_first, rhs_first, bias_first]
  rfl

/-- THE REFERENCE IS THE PERCEPTRON: its result stage, at the extended reals, is `Mlp.mlp` of the aggregated features
    and the four parameter arrays. -/
theorem ref_is_mlp (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x5 x6 : (⟨S640000, .i32⟩ : BufTy).Contents (Elt Ideal)) :
    val_main_v36 (F := Ideal) x0 x1 x2 x3 x4 x5 x6
      = Cert.Mlp.mlp (val_main_v27 (F := Ideal) x0 x5 x6) x1 x2 x3 x4 := by
  funext i
  rw [val_main_v36_apply, val_main_v35_apply, val_main_v32_apply, val_main_v34_apply, val_main_v33_apply,
    val_main_call0_v0_apply, val_main_call0_cst_apply]
  simp only [hidden_eq, rhs_second, bias_second]
  rfl

end Cert.ReferenceIdeal.RefValue

end
-- ==== Proof.BodyMlp.lean ====
/-
  What the kernel's body stores, read at one entry of its block.

  One grid point loads a block of 5000 rows of the aggregated features, the two weight matrices and the two bias
  vectors, and stores  max((x · Wh + bh) · Wo + bo, 0)  for its 5000 rows. At the extended reals the changes of float
  format are the identity, a matrix product into a zero accumulator read at `(p, c)` is the plain sum over the contracted
  axis, and a bias vector reshaped to one row and broadcast over the rows reads, at `(p, c)`, the bias at `c`. So the
  stored entry `(p, c)` is the perceptron's defining expression on row `p` of the block — and hence `Cert.Mlp.mlp` at
  whatever row `r` of the whole array that block row is (`hx`): a row of the result depends on that row of `X` alone.
-/
import proofs.«101324_j39771397161473_1_alg».proof.Proof.Gen.KernelIdeal.Skeleton
import proofs.«101324_j39771397161473_1_alg».proof.Proof.Mlp
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The block product's operand indices: output entry `(p, c)`, contraction index `k` ↦ `(p, k)` and `(k, c)` -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, read at `(p, c)`: the sum over `k` of `a[p, k] · b[k, c]`. -/
theorem matmul_zero_at {φ₁ φ₂ : FTy} (a : FVec Ideal S5000x128 φ₁) (b : FVec Ideal S128x128 φ₂) (p : Fin 5000) (c : Fin 128) :
    matmul dot_S5000x128_S128x128_S5000x128_1_0_0_1_n_n none a b (constant (F := Ideal) S5000x128 .f32 0x00000000#32) (ix2 p c)
      = ∑ k : Fin 128, a (ix2 p k) * b (ix2 k c) := by
  refine (Ideal.matmul_constant_zero_apply dot_S5000x128_S128x128_S5000x128_1_0_0_1_n_n none a b (ix2 p c)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p c) ((contrEquiv1 dot_S5000x128_S128x128_S5000x128_1_0_0_1_n_n 128 rfl rfl).symm k) = ix2 p k := funext fun d => Fin.ext (by
    match d with
    | ⟨0, _⟩ => exact lhs_row _ _
    | ⟨1, _⟩ => exact (lhs_contr _ _).trans hk)
  have er : dot_S5000x128_S128x128_S5000x128_1_0_0_1_n_n.rhsIdx (ix2 p c) ((contrEquiv1 dot_S5000x128_S128x128_S5000x128_1_0_0_1_n_n 128 rfl rfl).symm k) = ix2 k c := funext fun d => Fin.ext (by
    match d with
    | ⟨0, _⟩ => exact (rhs_contr _ _).trans hk
    | ⟨1, _⟩ => exact rhs_col _ _)
  rw [el, er]

/-- A bias vector reshaped to one row and broadcast over the 5000 rows reads, at `(p, c)`, the bias at `c`. -/
theorem bias_row_at {α : Type} (b : S128.Idx → α) (h1 : S128.ShapeCasts S1x128) (h2 : S1x128.Broadcasts S5000x128)
    (p : Fin 5000) (c : Fin 128) :
    broadcastTo S5000x128 (shapeCast S1x128 b h1) h2 (ix2 p c) = b (ix1 c) :=
  (broadcastTo_1b_ab_apply (shapeCast S1x128 b h1) h2 p c).trans (shapeCast_a_1a_apply b h1 0 c)

/-! ## The stored entry -/

/-- THE BODY'S STORE AT AN ENTRY: if row `p` of the loaded feature block is row `r` of the array `X`, the stored entry
    `(p, c)` is the perceptron of `X` and the loaded parameters at `(r, c)`. -/
theorem payload_at (x0 : Vec Ideal S5000x128 .f32) (x3 : Vec Ideal S128x128 .f32) (x6 : Vec Ideal S128 .f32)
    (x11 : Vec Ideal S128x128 .f32) (x14 : Vec Ideal S128 .f32)
    (X : (⟨2, ![100000, 128]⟩ : Shape).Idx → EReal) (r : Fin 100000) (p : Fin 5000) (c : Fin 128)
    (hx : ∀ l : Fin 128, x0 (ix2 p l) = X (ix2 r l)) :
    k0_pay1 (F := Ideal) x0 x3 x6 x11 x14 (ix2 p c) = Cert.Mlp.mlp X x3 x6 x11 x14 (ix2 r c) := by
  unfold k0_pay1 Cert.Mlp.mlp Cert.Mlp.out Cert.Mlp.hidden
  simp only [maximumf_apply, addf_apply, matmul_zero_at, bias_row_at, truncf_apply, shapeCast_self, broadcast_apply, hx]
  rfl

/-- The same at any entry `j` of the block against any entry `i` of the array in the same column (`hcol`) whose row is
    the block's row `j 0` (`hx`), when the four loaded parameter blocks are the whole parameter arrays. -/
theorem stored_at (x0 : Vec Ideal S5000x128 .f32) (x3 : Vec Ideal S128x128 .f32) (x6 : Vec Ideal S128 .f32)
    (x11 : Vec Ideal S128x128 .f32) (x14 : Vec Ideal S128 .f32)
    (X : (⟨2, ![100000, 128]⟩ : Shape).Idx → EReal) (Wh : (⟨2, ![128, 128]⟩ : Shape).Idx → EReal)
    (bh : (⟨1, ![128]⟩ : Shape).Idx → EReal) (Wo : (⟨2, ![128, 128]⟩ : Shape).Idx → EReal)
    (bo : (⟨1, ![128]⟩ : Shape).Idx → EReal)
    (j : S5000x128.Idx) (i : (⟨2, ![100000, 128]⟩ : Shape).Idx)
    (hcol : (i 1).val = (j 1).val) (hx : ∀ l : Fin 128, x0 (ix2 (j 0) l) = X (ix2 (i 0) l))
    (h3 : x3 = Wh) (h6 : x6 = bh) (h11 : x11 = Wo) (h14 : x14 = bo) :
    k0_pay1 (F := Ideal) x0 x3 x6 x11 x14 j = Cert.Mlp.mlp X Wh bh Wo bo i := by
  subst h3 h6 h11 h14
  have hc : i 1 = j 1 := Fin.ext hcol
  have hj : j = ix2 (j 0) (j 1) := eq_ix2 j
  have hi : i = ix2 (i 0) (j 1) := (eq_ix2 i).trans (congrArg (fun z : Fin 128 => ix2 (i 0) z) hc)
  rw [hj, hi]
  exact payload_at x0 x3 x6 x11 x14 X (i 0) (j 0) (j 1) hx

end Cert.KernelIdeal.Body

end
-- ==== Proof.Blocks.lean ====
/-
  From the blocks the grid points write to the whole result array.

  The launch has 20 grid points. Point `t` loads rows `5000·t … 5000·t + 4999` of the aggregated features together with
  the whole of the two weight matrices and the two bias vectors (their block index is `(0, 0)`, resp. `0`, at every point),
  and writes back rows `5000·t … 5000·t + 4999` of the result. Since a row of the perceptron depends on that row of the
  features only, what point `t` writes back is exactly block `t` of the one whole-array function `Cert.Mlp.mlp` of the
  arrays as the launch finds them; the 20 blocks tile the 100000 rows (row `r` lies in block `r / 5000`), so the result
  array ends holding `mlp` everywhere.
-/
import proofs.«101324_j39771397161473_1_alg».proof.Proof.Gen.KernelIdeal.Value
import proofs.«101324_j39771397161473_1_alg».proof.Proof.BodyMlp

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- The printed index maps, decided over the 20 points: the feature window moves with the result window along the
    rows and neither moves along the columns; the four parameter windows never move. -/
theorem index_facts : ∀ t : Fin cfg0.N,
    win0_0.index t (0 : Fin 2) = win0_5.index t (0 : Fin 2)
    ∧ win0_0.index t (1 : Fin 2) = 0
    ∧ win0_5.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) ≤ 19 :=
  (by decide +kernel : ∀ t : Fin grid0.N, _)

/-- Every one of the 20 row blocks is some point's. -/
theorem index_onto : ∀ q : Fin 20, ∃ t : Fin cfg0.N, win0_5.index t = ![q.val, 0] :=
  (by decide +kernel : ∀ q : Fin 20, ∃ t : Fin grid0.N, win0_5.index t = ![q.val, 0])

/-! ## The parameter windows hold the whole parameter arrays at every point -/

theorem hidden_weights (c : Dev nD) (t : Fin cfg0.N) : (iblk m c 1 t : S128x128.Idx → EReal) = V m c main_arg1 := by
  obtain ⟨-, -, -, e0, e1, -⟩ := index_facts t
  funext y
  show V m c main_arg1 (((cfg0.win 1).blk t).view.emb y) = V m c main_arg1 y
  have h : ((cfg0.win 1).blk t).view.emb y = y := by
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  rw [h]

theorem hidden_bias (c : Dev nD) (t : Fin cfg0.N) : (iblk m c 2 t : S128.Idx → EReal) = V m c main_arg2 := by
  obtain ⟨-, -, -, -, -, e0, -⟩ := index_facts t
  funext y
  show V m c main_arg2 (((cfg0.win 2).blk t).view.emb y) = V m c main_arg2 y
  have h : ((cfg0.win 2).blk t).view.emb y = y := by
    funext a; apply Fin.ext
    match a with
    | ⟨0, _⟩ => show win0_2.index t (0 : Fin 1) * 128 + 1 * (y 0).val = (y 0).val; omega
  rw [h]

theorem output_weights (c : Dev nD) (t : Fin cfg0.N) : (iblk m c 3 t : S128x128.Idx → EReal) = V m c main_arg3 := by
  obtain ⟨-, -, -, -, -, -, e0, e1, -⟩ := index_facts t
  funext y
  show V m c main_arg3 (((cfg0.win 3).blk t).view.emb y) = V m c main_arg3 y
  have h : ((cfg0.win 3).blk t).view.emb y = y := by
    funext a; apply Fin.ext
    match a with
    | ⟨0, _⟩ => show win0_3.index t (0 : Fin 2) * 128 + 1 * (y 0).val = (y 0).val; omega
    | ⟨1, _⟩ => show win0_3.index t (1 : Fin 2) * 128 + 1 * (y 1).val = (y 1).val; omega
  rw [h]

theorem output_bias (c : Dev nD) (t : Fin cfg0.N) : (iblk m c 4 t : S128.Idx → EReal) = V m c main_arg4 := by
  obtain ⟨-, -, -, -, -, -, -, -, e0, -⟩ := index_facts t
  funext y
  show V m c main_arg4 (((cfg0.win 4).blk t).view.emb y) = V m c main_arg4 y
  have h : ((cfg0.win 4).blk t).view.emb y = y := by
    funext a; apply Fin.ext
    match a with
    | ⟨0, _⟩ => show win0_4.index t (0 : Fin 1) * 128 + 1 * (y 0).val = (y 0).val; omega
  rw [h]

/-! ## What a point writes back -/

/-- WHAT POINT `t` WRITES BACK is block `t` of the perceptron of the arrays as the launch finds them. -/
theorem flushed_eq (c : Dev nD) (t : Fin cfg0.N) :
    (dats m 0 c).flushed 5 t = ((cfg0.win 5).blk t).view.read (Elt Ideal)
      (Cert.Mlp.mlp (V m c main_v27) (V m c main_arg1) (V m c main_arg2) (V m c main_arg3) (V m c main_arg4)) := by
  rw [Value.flushed5]
  unfold out0_5
  rw [View.canon_unit_zero origin2]
  simp only [View.ld_unit_zero (S := S5000x128) origin2, View.ld_unit_zero (S := S128x128) origin2,
    View.ld_unit_zero (S := S128) origin1]
  obtain ⟨e0, e1, e2, -⟩ := index_facts t
  funext j
  show k0_pay1 (F := Ideal) (iblk m c 0 t) (iblk m c 1 t) (iblk m c 2 t) (iblk m c 3 t) (iblk m c 4 t) j
    = Cert.Mlp.mlp (V m c main_v27) (V m c main_arg1) (V m c main_arg2) (V m c main_arg3) (V m c main_arg4)
        (((cfg0.win 5).blk t).view.emb j)
  refine Body.stored_at (iblk m c 0 t) (iblk m c 1 t) (iblk m c 2 t) (iblk m c 3 t) (iblk m c 4 t)
    (V m c main_v27) (V m c main_arg1) (V m c main_arg2) (V m c main_arg3) (V m c main_arg4)
    j (((cfg0.win 5).blk t).view.emb j) ?_ ?_
    (hidden_weights m c t) (hidden_bias m c t) (output_weights m c t) (output_bias m c t)
  · show win0_5.index t (1 : Fin 2) * 128 + 1 * (j 1).val = (j 1).val
    omega
  · intro l
    show V m c main_v27 (((cfg0.win 0).blk t).view.emb (ix2 (j 0) l))
      = V m c main_v27 (ix2 ((((cfg0.win 5).blk t).view.emb j) 0) l)
    refine congrArg _ ?_
    funext a; apply Fin.ext
    match a with
    | ⟨0, _⟩ =>
      show win0_0.index t (0 : Fin 2) * 5000 + 1 * (j 0).val = win0_5.index t (0 : Fin 2) * 5000 + 1 * (j 0).val
      omega
    | ⟨1, _⟩ =>
      show win0_0.index t (1 : Fin 2) * 128 + 1 * l.val = l.val
      omega

/-! ## The blocks tile the array -/

/-- An index of the array is in point `t`'s block iff each coordinate is in the block's range on its axis. -/
theorem mem_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v28).slice (win0_5.rect t)).set ↔ _
  rw [View.set_slice_whole, Rect.mem_set_unit]
  exact Iff.rfl

/-- Row `r` of the array lies in the block of the point whose row-block index is `r / 5000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := index_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- THE RESULT ARRAY after the run: the perceptron of the arrays as the launch finds them, everywhere. -/
theorem final (c : Dev nD) :
    (dats m 0 c).arrAt 5 cfg0.N
      = Cert.Mlp.mlp (V m c main_v27) (V m c main_arg1) (V m c main_arg2) (V m c main_arg3) (V m c main_arg4) :=
  (dats m 0 c).arrAt_eq_of_cover 5 _ (fun t _ => flushed_eq m c t) cover

end Cert.KernelIdeal.Blocks

end
-- ==== Proof.Aggregate.lean ====
/-
  Both programs aggregate the node features the same way.

  Before the dense layers each program adds, to every node's feature row, the rows of its neighbours along both
  directions of every edge: two scatter-adds of gathered rows, the edge endpoints first wrapped into range. The kernel
  does this on the host before its one launch, the reference as the first stretch of its straight-line program, and the
  two stretches are the same operations on the same arguments in the same order. So the array the kernel's launch finds
  in its first window is the reference's aggregated array of the same three arguments — as terms, with no need to say
  what a scatter-add of duplicate indices computes.
-/
import proofs.«101324_j39771397161473_1_alg».proof.Proof.Gen.KernelIdeal.Frame
import proofs.«101324_j39771397161473_1_alg».proof.Proof.Gen.ReferenceIdeal.Read
import Idealize.ShloMosaic.Lib.StableHlo.Run

noncomputable section

namespace Cert.KernelIdeal.Aggregate

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 2000000 in
/-- THE AGGREGATED FEATURES THE LAUNCH FINDS: the contents of the first window's array at region entry are the
    reference's aggregation stage of the node features and the two edge-endpoint arrays. -/
theorem entry_features (c : Dev nD) :
    (V m c main_v27 : S100000x128.Idx → EReal)
      = Cert.ReferenceIdeal.Read.val_main_v27 (F := Ideal) (m ((c : Thread nD τ).loc main_arg0))
          (m ((c : Thread nD τ).loc main_arg5)) (m ((c : Thread nD τ).loc main_arg6)) := by
  dsimp only [Gen.V, Gen.hostOps0]
  after_results_simp <;> rfl

end Cert.KernelIdeal.Aggregate

end
-- ==== Proof.KernelRun.lean ====
/-
  The kernel's run, with its result named as a function of the seven arguments.

  The generated run names the result array block by block; the blocks tile it and each is a block of the perceptron of
  the arrays the launch finds (Blocks.lean). Those arrays are: the aggregated features, which are the reference's
  aggregation stage of the node features and the two edge-endpoint arrays (Aggregate.lean), and the four parameter
  arrays, which no host operation before the launch writes. Hence the result is the perceptron of the aggregation stage
  and the parameters — the same expression the reference's run ends at.
-/
import proofs.«101324_j39771397161473_1_alg».proof.Proof.Blocks
import proofs.«101324_j39771397161473_1_alg».proof.Proof.Aggregate

noncomputable section

namespace Cert.KernelIdeal.KernelRun

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The result array after the run, over the arguments as launched. -/
theorem result (c : Dev nD) :
    (dats m 0 c).arrAt 5 cfg0.N
      = Cert.Mlp.mlp
          (Cert.ReferenceIdeal.Read.val_main_v27 (F := Ideal) (m ((c : Thread nD τ).loc main_arg0))
            (m ((c : Thread nD τ).loc main_arg5)) (m ((c : Thread nD τ).loc main_arg6)))
          (m ((c : Thread nD τ).loc main_arg1)) (m ((c : Thread nD τ).loc main_arg2))
          (m ((c : Thread nD τ).loc main_arg3)) (m ((c : Thread nD τ).loc main_arg4)) := by
  rw [Blocks.final m c, Aggregate.entry_features m c, V_main_arg1, V_main_arg2, V_main_arg3, V_main_arg4]

/-- Every weakly fair execution of the kernel's program terminates with the result array at the perceptron of the
    aggregated features and the parameters, the arguments unchanged. -/
theorem run : θ_run defs (onTc (τ := τ) (main (F := Ideal))) ⟨m, fun _ => 0, ρ⟩ fun r => ∀ c : Dev nD,
      r.2.mem ((c : Thread nD τ).loc main_v28)
        = Cert.Mlp.mlp
            (Cert.ReferenceIdeal.Read.val_main_v27 (F := Ideal) (m ((c : Thread nD τ).loc main_arg0))
              (m ((c : Thread nD τ).loc main_arg5)) (m ((c : Thread nD τ).loc main_arg6)))
            (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (result m c), (h c).2⟩) (Value.run_blocks m ρ)

end Cert.KernelIdeal.KernelRun

end
-- ==== Proof.lean ====
/-
  A graph-convolution layer: neighbour aggregation followed by a two-layer perceptron, the kernel against its reference.

  Both programs first add to every node's 128 features those of its neighbours along both directions of each of the
  640000 edges (two scatter-adds of gathered rows), then apply  max((X · Wh + bh) · Wo + bo, 0)  to the 100000
  aggregated rows. The reference does the dense part as two whole matrix products on the host. The kernel does it in a
  launch of 20 grid points, each taking 5000 rows through both products, with the operands rounded to a narrower float
  format on the way in — which over the extended reals is the identity.

  The two results are equal entry by entry because they are the same expression: the aggregation is the same stretch of
  host operations on the same arguments in both programs (Proof/Aggregate.lean: equal as terms, the scatter-add never
  opened); the reference's two products, bias rows and rectifier read at an entry are the perceptron's defining sums
  (Proof/RefMlp.lean over the specification Proof/Mlp.lean); a grid point's stored entry is the same sums on its block's
  row (Proof/BodyMlp.lean); and since a result row depends on its feature row alone, the 20 blocks written back are the
  blocks of that one function and tile the array (Proof/Blocks.lean, Proof/KernelRun.lean). No law of arithmetic beyond
  reading a product as a sum is used, so the finiteness of the inputs is never opened.

  The three frames: the two kernel programs' are the generated frames of their launch; the reference has no launch, and
  its frame is its run with the result forgotten. The idealization rewrote nothing, so there is nothing to preserve.
-/
import proofs.«101324_j39771397161473_1_alg».proof.Defs
import proofs.«101324_j39771397161473_1_alg».proof.Proof.Gen.Kernel
import proofs.«101324_j39771397161473_1_alg».proof.Proof.Gen.Kernel.Skeleton
import proofs.«101324_j39771397161473_1_alg».proof.Proof.Gen.Kernel.Launch
import proofs.«101324_j39771397161473_1_alg».proof.Proof.Gen.Kernel.Points
import proofs.«101324_j39771397161473_1_alg».proof.Proof.Gen.Kernel.Frame
import proofs.«101324_j39771397161473_1_alg».proof.Proof.Gen.KernelIdeal
import proofs.«101324_j39771397161473_1_alg».proof.Proof.Gen.KernelIdeal.Skeleton
import proofs.«101324_j39771397161473_1_alg».proof.Proof.Gen.KernelIdeal.Launch
import proofs.«101324_j39771397161473_1_alg».proof.Proof.Gen.KernelIdeal.Points
import proofs.«101324_j39771397161473_1_alg».proof.Proof.Gen.KernelIdeal.Frame
import proofs.«101324_j39771397161473_1_alg».proof.Proof.Gen.KernelIdeal.Value
import proofs.«101324_j39771397161473_1_alg».proof.Proof.Gen.ReferenceIdeal
import proofs.«101324_j39771397161473_1_alg».proof.Proof.Gen.ReferenceIdeal.Run
import proofs.«101324_j39771397161473_1_alg».proof.Proof.Gen.ReferenceIdeal.Read
import proofs.«101324_j39771397161473_1_alg».proof.Proof.Gen.Pre_finite_inputs
import proofs.«101324_j39771397161473_1_alg».proof.Proof.RefMlp
import proofs.«101324_j39771397161473_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the seven arguments both programs end with the result array at the perceptron of the
    aggregated features and the parameters: the kernel by its blocks, the reference by reading its products as sums. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.ref_is_mlp,
    (hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
